-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x8 : Shape := ⟨2, ![32, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x32 .f32) (main_arg3 : FVec F S32 .f32) (main_arg4 : FVec F S32x8 .f32) (main_arg5 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x8 .f32 := Host.absf main_arg4
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x8 : Shape := ⟨2, ![32, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S5000x128 : Shape := ⟨2, ![5000, 128]⟩
abbrev S5000x32 : Shape := ⟨2, ![5000, 32]⟩
abbrev S1700000x32 : Shape := ⟨2, ![1700000, 32]⟩
abbrev S1x32 : Shape := ⟨2, ![1, 32]⟩
abbrev S100000x8 : Shape := ⟨2, ![100000, 8]⟩
abbrev S5000x8 : Shape := ⟨2, ![5000, 8]⟩
abbrev S1700000x8 : Shape := ⟨2, ![1700000, 8]⟩
abbrev S1x8 : Shape := ⟨2, ![1, 8]⟩

abbrev nBuf : Space → Nat
  | .hbm => 77
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x32, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x32, .f32⟩
  | .hbm, ⟨49, _⟩ => ⟨S1700000x1, .f32⟩
  | .hbm, ⟨50, _⟩ => ⟨S1700000x32, .f32⟩
  | .hbm, ⟨51, _⟩ => ⟨S1700000x32, .f32⟩
  | .hbm, ⟨52, _⟩ => ⟨S_, .f32⟩
  | .hbm, ⟨53, _⟩ => ⟨S100000x32, .f32⟩
  | .hbm, ⟨54, _⟩ => ⟨S1700000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x8, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x8, .f32⟩
  | .hbm, ⟨68, _⟩ => ⟨S1700000x1, .f32⟩
  | .hbm, ⟨69, _⟩ => ⟨S1700000x8, .f32⟩
  | .hbm, ⟨70, _⟩ => ⟨S1700000x8, .f32⟩
  | .hbm, ⟨71, _⟩ => ⟨S_, .f32⟩
  | .hbm, ⟨72, _⟩ => ⟨S100000x8, .f32⟩
  | .hbm, ⟨73, _⟩ => ⟨S1700000x1, .i32⟩
  | .hbm, ⟨74, _⟩ => ⟨S100000x8, .f32⟩
  | .hbm, ⟨75, _⟩ => ⟨S1x8, .f32⟩
  | .hbm, ⟨76, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S32x8, .f32⟩
  | .local _ .vmem, ⟨13, _⟩ => ⟨S5000x8, .f32⟩
  | .local _ .vmem, ⟨14, _⟩ => ⟨S5000x8, .f32⟩
  | .local _ .vmem, ⟨15, _⟩ => ⟨S5000x8, .f32⟩
  | .local _ .vmem, ⟨16, _⟩ => ⟨S5000x8, .f32⟩
  | .local _ .vmem, ⟨17, _⟩ => ⟨S1x8, .f32⟩
  | .local _ .vmem, ⟨18, _⟩ => ⟨S5000x8, .f32⟩
  | .local _ .vmem, ⟨19, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x8_S32x8_0_0 : ∀ a, (![0, 0] : Fin 2 → Nat) a + S32x8.size a ≤ S32x8.size a
  h_S32x8 : 0 < S32x8.numel
  inb_S5000x8_S5000x8_0_0 : ∀ a, (![0, 0] : Fin 2 → Nat) a + S5000x8.size a ≤ S5000x8.size a
  h_S5000x8 : 0 < S5000x8.numel
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x32_S5000x32_1_0_0_1_n_n_wf : DotDims.WF S5000x128 S128x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x8_S5000x8_1_0_0_1_n_n_wf : DotDims.WF S5000x32 S32x8 S5000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x8.size a ≤ S32x8.size a
  hwx2_1 : ∀ i : grid2.Coords, EltTy.bits .f32 = 32 ∨ (Rect.block (s := S32x8) S32x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x8.size a ≤ S100000x8.size a
  hwx2_2 : ∀ i : grid2.Coords, EltTy.bits .f32 = 32 ∨ (Rect.block (s := S100000x8) S5000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S100000x8.size a
  hwx3_0 : ∀ i : grid3.Coords, EltTy.bits .f32 = 32 ∨ (Rect.block (s := S100000x8) S5000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x8.size a ≤ S100000x8.size a
  hwx3_2 : ∀ i : grid3.Coords, EltTy.bits .f32 = 32 ∨ (Rect.block (s := S100000x8) S5000x8.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x8_S5000x8_1_0_0_1_n_n : DotDims S5000x32 S32x8 S5000x8 where
  lhsContracting := [1]
  rhsContracting := [0]
  lhsNonContracting := [0]
  rhsNonContracting := [1]
  lhsBatch := []
  rhsBatch := []
  wf := dot_S5000x32_S32x8_S5000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x8 : Shape := ⟨2, ![32, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x8 : Shape := ⟨2, ![100000, 8]⟩
abbrev S1700000x8 : Shape := ⟨2, ![1700000, 8]⟩
abbrev S1x8 : Shape := ⟨2, ![1, 8]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x32, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x32, .f32⟩
  | .hbm, ⟨49, _⟩ => ⟨S1700000x1, .f32⟩
  | .hbm, ⟨50, _⟩ => ⟨S1700000x32, .f32⟩
  | .hbm, ⟨51, _⟩ => ⟨S1700000x32, .f32⟩
  | .hbm, ⟨52, _⟩ => ⟨S_, .f32⟩
  | .hbm, ⟨53, _⟩ => ⟨S100000x32, .f32⟩
  | .hbm, ⟨54, _⟩ => ⟨S1700000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x8, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x8, .f32⟩
  | .hbm, ⟨72, _⟩ => ⟨S1700000x1, .f32⟩
  | .hbm, ⟨73, _⟩ => ⟨S1700000x8, .f32⟩
  | .hbm, ⟨74, _⟩ => ⟨S1700000x8, .f32⟩
  | .hbm, ⟨75, _⟩ => ⟨S_, .f32⟩
  | .hbm, ⟨76, _⟩ => ⟨S100000x8, .f32⟩
  | .hbm, ⟨77, _⟩ => ⟨S1700000x1, .i32⟩
  | .hbm, ⟨78, _⟩ => ⟨S100000x8, .f32⟩
  | .hbm, ⟨79, _⟩ => ⟨S1x8, .f32⟩
  | .hbm, ⟨80, _⟩ => ⟨S100000x8, .f32⟩
  | .hbm, ⟨81, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x8_S100000x8_1_0_0_1_n_n_wf : DotDims.WF S100000x32 S32x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

class Facts : Prop extends Facts₀ where

variable [Facts]
-- ==== Proof.KernelRun.lean ====
/-
  The idealized kernel's run, with every buffer named at the end.

  The program is four kernel launches among three stretches of host operations. Its run is followed as a fold of
  buffer contents from the launch memory: a host stretch applies its operations, a launch replaces the arrays its
  windows write back and keeps every other buffer. The last stage of that fold is `Gen.W7`. This module states the
  run with the post "every unscoped buffer of every core ends at `Gen.W7`"; the value of the result buffer and the
  unchanged arguments are both read off it.
-/
import proofs.«177991_j81046032876152_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final memory every unscoped
    buffer of every core holds the last stage of the fold of buffer contents. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run, read at the result buffer and at the six argument buffers: the result ends at the last stage of the
    fold, each argument as launched. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_fold m ρ)

end Cert.KernelIdeal.RunValue

end
-- ==== Proof.FoldA.lean ====
/-
  The buffer contents after the first stretch of host operations.

  Before the first launch the program builds, from the edge list alone, the source and destination node of every
  edge with one self-loop per node appended, and the per-edge normalisation 1/sqrt(deg(src)) · 1/sqrt(deg(dst)), the
  degree counted by a scatter-add of ones over the destinations. The reference program applies the same operations in
  the same order, so each of these three buffers holds the reference's own stage function of the edge list. The six
  argument buffers are not written.
-/
import proofs.«177991_j81046032876152_1_alg».proof.Proof.Gen.KernelIdeal.Frame
import proofs.«177991_j81046032876152_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.FoldA

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The edge list as launched. -/
abbrev edges : (⟨Cert.ReferenceIdeal.S2x1600000, .i32⟩ : BufTy).Contents (Elt Ideal) := m ((c : Thread nD τ).loc main_arg1)

/-- After the first stretch: the source node of every edge, self-loops appended. -/
theorem W1_src : W1 m ρ c (Proc.devRef .tc main_v3) = Cert.ReferenceIdeal.Read.val_main_v3 (F := Ideal) (edges m c) := by
  show StableHlo.after hostOps0 (W0 m ρ c) (Proc.devRef .tc main_v3) = _
  after_results_simp
  rfl

/-- After the first stretch: the destination node of every edge, self-loops appended. -/
theorem W1_dst : W1 m ρ c (Proc.devRef .tc main_v6) = Cert.ReferenceIdeal.Read.val_main_v6 (F := Ideal) (edges m c) := by
  show StableHlo.after hostOps0 (W0 m ρ c) (Proc.devRef .tc main_v6) = _
  after_results_simp
  rfl

/-- After the first stretch: the normalisation of every edge. -/
theorem W1_norm : W1 m ρ c (Proc.devRef .tc main_v26) = Cert.ReferenceIdeal.Read.val_main_v26 (F := Ideal) (edges m c) := by
  show StableHlo.after hostOps0 (W0 m ρ c) (Proc.devRef .tc main_v26) = _
  after_results_simp
  rfl

/-- The first stretch writes no argument buffer. -/
theorem W1_arg0 : W1 m ρ c (Proc.devRef .tc main_arg0) = m ((c : Thread nD τ).loc main_arg0) := by
  show StableHlo.after hostOps0 (W0 m ρ c) (Proc.devRef .tc main_arg0) = _
  after_results_simp
theorem W1_arg2 : W1 m ρ c (Proc.devRef .tc main_arg2) = m ((c : Thread nD τ).loc main_arg2) := by
  show StableHlo.after hostOps0 (W0 m ρ c) (Proc.devRef .tc main_arg2) = _
  after_results_simp
theorem W1_arg3 : W1 m ρ c (Proc.devRef .tc main_arg3) = m ((c : Thread nD τ).loc main_arg3) := by
  show StableHlo.after hostOps0 (W0 m ρ c) (Proc.devRef .tc main_arg3) = _
  after_results_simp
theorem W1_arg4 : W1 m ρ c (Proc.devRef .tc main_arg4) = m ((c : Thread nD τ).loc main_arg4) := by
  show StableHlo.after hostOps0 (W0 m ρ c) (Proc.devRef .tc main_arg4) = _
  after_results_simp
theorem W1_arg5 : W1 m ρ c (Proc.devRef .tc main_arg5) = m ((c : Thread nD τ).loc main_arg5) := by
  show StableHlo.after hostOps0 (W0 m ρ c) (Proc.devRef .tc main_arg5) = _
  after_results_simp

end Cert.KernelIdeal.FoldA

end
-- ==== Proof.Linear1.lean ====
/-
  The first launch: the node features times the first weight matrix.

  The launch walks 20 blocks of 5000 rows. At each block the body loads a [5000,128] block of the features and the whole
  [128,32] weight matrix, multiplies them into a zero accumulator, and stores the [5000,32] product; format changes are
  the identity on the extended reals. Entry (r, o) of a block's product is the sum over k of feature (r, k) times weight
  (k, o), and row r of block t is row 5000 t + r of the array, so after the last block the whole output array is the
  matrix product of the two input arrays — the same sum over k that the reference's `dot_general` is, index by index.
  The entry contents `V` of the launch are a parameter: nothing here looks at how they were made.
-/
import proofs.«177991_j81046032876152_1_alg».proof.Proof.Gen.KernelIdeal.Frame
import proofs.«177991_j81046032876152_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Linear1

open Idealize.ShloMosaic Idealize.ShloMosaic.TcCoe Idealize.SL.Sem
open Idealize.ShloMosaic.Pipeline (Dat)
open Cert.KernelIdeal Cert.KernelIdeal.Gen

theorem hz : (![0, 0] : Fin 2 → Nat) = fun _ => 0 := funext fun a => by fin_cases a <;> rfl

/-! ## The body's product at an index -/

/-- The feature block's entry that output entry `j` meets at contraction step `k`: row of `j`, column `k`. -/
abbrev lrow (j : S5000x32.Idx) (k : Fin 128) : S5000x128.Idx := fun a => match a with
  | ⟨0, _⟩ => ⟨(j 0).val, (j 0).isLt⟩
  | ⟨1, _⟩ => ⟨k.val, k.isLt⟩
/-- The weight's entry that output entry `j` meets at contraction step `k`: row `k`, column of `j`. -/
abbrev rcol (j : S5000x32.Idx) (k : Fin 128) : S128x32.Idx := fun a => match a with
  | ⟨0, _⟩ => ⟨k.val, k.isLt⟩
  | ⟨1, _⟩ => ⟨(j 1).val, (j 1).isLt⟩

theorem lhs_0 (i : S5000x32.Idx) (q : dot_S5000x128_S128x32_S5000x32_1_0_0_1_n_n.contr.Idx) : (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem lhs_1 (i : S5000x32.Idx) (q : dot_S5000x128_S128x32_S5000x32_1_0_0_1_n_n.contr.Idx) : (dot_S5000x128_S128x32_S5000x32_1_0_0_1_n_n.lhsIdx i q 1).val = (q ⟨0, by decide⟩).val :=
  dot_S5000x128_S128x32_S5000x32_1_0_0_1_n_n.lhsIdx_val_of_single rfl i q
theorem rhs_0 (i : S5000x32.Idx) (q : dot_S5000x128_S128x32_S5000x32_1_0_0_1_n_n.contr.Idx) : (dot_S5000x128_S128x32_S5000x32_1_0_0_1_n_n.rhsIdx i q 0).val = (q ⟨0, by decide⟩).val :=
  dot_S5000x128_S128x32_S5000x32_1_0_0_1_n_n.rhsIdx_val_of_single rfl i q
theorem rhs_1 (i : S5000x32.Idx) (q : dot_S5000x128_S128x32_S5000x32_1_0_0_1_n_n.contr.Idx) : (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- Entry `j` of the body's stored value is the sum over the 128 contraction steps of feature-block entry (row of j, k)
    times weight entry (k, column of j). -/
theorem pay_apply (x0 : Vec Ideal S5000x128 .f32) (x1 : Vec Ideal S128x32 .f32) (j : S5000x32.Idx) :
    k0_pay1 x0 x1 j = ∑ k : Fin 128, x0 (lrow j k) * x1 (rcol j k) := by
  unfold k0_pay1
  refine (Ideal.matmul_constant_zero_apply dot_S5000x128_S128x32_S5000x32_1_0_0_1_n_n none _ _ j).trans ?_
  rw [← Equiv.sum_comp (ValueIdx.contrEquiv1 dot_S5000x128_S128x32_S5000x32_1_0_0_1_n_n 128 rfl rfl).symm]
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx j ((ValueIdx.contrEquiv1 dot_S5000x128_S128x32_S5000x32_1_0_0_1_n_n 128 rfl rfl).symm k) = lrow j k := funext fun a => Fin.ext (by
    match a with
    | ⟨0, _⟩ => exact lhs_0 _ _
    | ⟨1, _⟩ => exact (lhs_1 _ _).trans hk)
  have er : dot_S5000x128_S128x32_S5000x32_1_0_0_1_n_n.rhsIdx j ((ValueIdx.contrEquiv1 dot_S5000x128_S128x32_S5000x32_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

/-! ## The windows' blocks, read at an index -/

variable (V : (c : Dev nD) → (b : Ref sig .tc) → Buf (Elt Ideal) ((c : Thread nD τ).loc b))

/-- The printed index maps over the grid: the feature window and the output window sit at block row `t`, column block 0;
    the weight window always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the feature window's block at point `t` is row `5000 t + r` of the feature array. -/
theorem feat_apply (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → EReal) i := by
  obtain ⟨e0, e1, -, -, -, -⟩ := idx_facts t
  unfold iblk0
  rw [View.read_apply]
  show (V c main_arg0 : S100000x128.Idx → EReal) _ = _
  refine congrArg (V c main_arg0 : S100000x128.Idx → EReal) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight window's block at any point is the whole weight array. -/
theorem weight_apply (c : Dev nD) (t : Fin cfg0.N) (y : S128x32.Idx) (i : S128x32.Idx)
    (h0 : (i 0).val = (y 0).val) (h1 : (i 1).val = (y 1).val) :
    (iblk0 V c 1 t : Vec Ideal S128x32 .f32) y = (V c main_arg2 : S128x32.Idx → EReal) i := by
  obtain ⟨-, -, e0, e1, -, -⟩ := idx_facts t
  unfold iblk0
  rw [View.read_apply]
  show (V c main_arg2 : S128x32.Idx → EReal) _ = _
  refine congrArg (V c main_arg2 : S128x32.Idx → EReal) (funext fun a => Fin.ext ?_)
  match a with
  | ⟨0, _⟩ => show win0_1.index t (0 : Fin 2) * 128 + 1 * (y 0).val = (i 0).val; rw [e0, h0]; omega
  | ⟨1, _⟩ => show win0_1.index t (1 : Fin 2) * 32 + 1 * (y 1).val = (i 1).val; rw [e1, h1]; omega

/-! ## From blocks to the array -/

/-- What point `t` writes back is block `t` of the matrix product of the two input arrays as the launch finds them:
    the body's sum over k at block entry (r, o) is the product's sum at array entry (5000 t + r, o). -/
theorem flushed_eq (c : Dev nD) (t : Fin cfg0.N) :
    (dat0 V c).flushed 2 t = ((cfg0.win 2).blk t).view.read (Elt Ideal)
      (Cert.ReferenceIdeal.Read.val_main_v27 (F := Ideal) (V c main_arg0) (V c main_arg2)) := by
  obtain ⟨-, -, -, -, e0, e1⟩ := idx_facts t
  show (cfg0.win 2).cut (grid0.coords t) ((dat0 V c).after 2 t) = _
  rw [after0_2]
  unfold out0_2
  rw [View.canon_unit_zero hz]
  simp only [View.ld_unit_zero (S := S5000x128) hz, View.ld_unit_zero (S := S128x32) hz]
  funext j
  rw [View.read_apply, Cert.ReferenceIdeal.Read.val_main_v27_apply]
  refine (pay_apply (iblk0 V c 0 t) (iblk0 V c 1 t) j).trans ?_
  refine Finset.sum_congr rfl fun k _ => ?_
  rw [feat_apply V c t (lrow j k) (Cert.ReferenceIdeal.Read.lidx_main_v27 (((cfg0.win 2).blk t).view.emb j) k)
      (by show win0_2.index t (0 : Fin 2) * 5000 + 1 * (j 0).val = 5000 * t.val + (j 0).val; rw [e0]; omega) rfl,
    weight_apply V c t (rcol j k) (Cert.ReferenceIdeal.Read.ridx_main_v27 (((cfg0.win 2).blk t).view.emb j) k)
      rfl (by show win0_2.index t (1 : Fin 2) * 32 + 1 * (j 1).val = (j 1).val; rw [e1]; omega)]

/-- An index of the output array is in point `t`'s block iff each coordinate is in the block's range on its axis. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v27).slice (win0_2.rect t)).set ↔ _
  rw [View.set_slice_whole, Rect.mem_set_unit]
  exact Iff.rfl

/-- Every row of the output array is in some block: row `r` in block `r / 5000`. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, e0, e1⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e0]; omega
  | ⟨1, _⟩ => show win0_2.index t (1 : Fin 2) * 32 ≤ (i 1).val ∧ (i 1).val < win0_2.index t (1 : Fin 2) * 32 + 32; rw [e1]; omega

/-- After the launch the output array is the matrix product of the two input arrays as the launch found them. -/
theorem final (c : Dev nD) : (dat0 V c).arrAt 2 cfg0.N
    = Cert.ReferenceIdeal.Read.val_main_v27 (F := Ideal) (V c main_arg0) (V c main_arg2) :=
  (dat0 V c).arrAt_eq_of_cover 2 _ (fun t _ => flushed_eq V c t) cover

end Cert.KernelIdeal.Linear1

end
-- ==== Proof.FoldB.lean ====
/-
  The buffer contents after the first launch and after the second stretch of host operations.

  The first launch leaves its output array at the matrix product of the features and the first weight matrix and
  keeps every other buffer. The second stretch gathers the product's rows at the edge sources, scales each by the
  edge's normalisation and scatter-adds them at the edge destinations — the reference's own aggregation of the same
  product — and lays the first bias vector out as a [1,32] row. The edge buffers and the remaining arguments pass
  through both unchanged.
-/
import proofs.«177991_j81046032876152_1_alg».proof.Proof.Gen.KernelIdeal.Frame
import proofs.«177991_j81046032876152_1_alg».proof.Proof.Gen.ReferenceIdeal.Read
import proofs.«177991_j81046032876152_1_alg».proof.Proof.FoldA
import proofs.«177991_j81046032876152_1_alg».proof.Proof.Linear1
import Idealize.ShloMosaic.Lib.StableHlo.Run
import Idealize.ShloMosaic.Lib.Pipeline.Value
import Idealize.ShloMosaic.Lib.ValueIdx

set_option maxRecDepth 16384

noncomputable section

namespace Cert.KernelIdeal.FoldB

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

open Cert.KernelIdeal.FoldA

/-- The node features and the first weight matrix as launched. -/
abbrev feats : (⟨Cert.ReferenceIdeal.S100000x128, .f32⟩ : BufTy).Contents (Elt Ideal) := m ((c : Thread nD τ).loc main_arg0)
abbrev weight1 : (⟨Cert.ReferenceIdeal.S128x32, .f32⟩ : BufTy).Contents (Elt Ideal) := m ((c : Thread nD τ).loc main_arg2)

/-! ## After the first launch -/

/-- The first launch writes only its output array: the edge buffers and the later arguments are kept. -/
theorem W2_src : W2 m ρ c (Proc.devRef .tc main_v3) = Cert.ReferenceIdeal.Read.val_main_v3 (F := Ideal) (edges m c) :=
  (W2_of_ne m ρ c main_v3 (by decide)).trans (W1_src m ρ c)
theorem W2_dst : W2 m ρ c (Proc.devRef .tc main_v6) = Cert.ReferenceIdeal.Read.val_main_v6 (F := Ideal) (edges m c) :=
  (W2_of_ne m ρ c main_v6 (by decide)).trans (W1_dst m ρ c)
theorem W2_norm : W2 m ρ c (Proc.devRef .tc main_v26) = Cert.ReferenceIdeal.Read.val_main_v26 (F := Ideal) (edges m c) :=
  (W2_of_ne m ρ c main_v26 (by decide)).trans (W1_norm m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)

/-- The first launch's output array is the features times the first weight matrix. -/
theorem W2_prod : W2 m ρ c (Proc.devRef .tc main_v27) = Cert.ReferenceIdeal.Read.val_main_v27 (F := Ideal) (feats m c) (weight1 m c) :=
  (W2_arr m ρ c 2).trans ((Cert.KernelIdeal.Linear1.final (V1 m ρ) c).trans (by
    rw [show V1 m ρ c main_arg0 = m ((c : Thread nD τ).loc main_arg0) from W1_arg0 m ρ c,
      show V1 m ρ c main_arg2 = m ((c : Thread nD τ).loc main_arg2) from W1_arg2 m ρ c]))

/-! ## After the second stretch -/

/-- The aggregated first layer: the product's rows gathered at the sources, scaled by the normalisation, added up at
    the destinations. -/
theorem W3_agg : W3 m ρ c (Proc.devRef .tc main_v40)
    = Cert.ReferenceIdeal.Read.val_main_v40 (F := Ideal) (feats m c) (edges m c) (weight1 m c) := by
  show StableHlo.after hostOps1 (W2 m ρ c) (Proc.devRef .tc main_v40) = _
  after_results_simp
  rw [W2_prod m ρ c, W2_src m ρ c, W2_dst m ρ c, W2_norm m ρ c]
  rfl

/-- The first bias vector laid out as a [1,32] row. -/
theorem W3_biasRow : W3 m ρ c (Proc.devRef .tc main_v41)
    = shapeCast S1x32 (m ((c : Thread nD τ).loc main_arg3)) shapeCasts_S32_S1x32 := by
  show StableHlo.after hostOps1 (W2 m ρ c) (Proc.devRef .tc main_v41) = _
  after_results_simp
  rw [W2_arg3 m ρ c]
  rfl

/-- The second stretch writes none of the edge buffers and no argument. -/
theorem W3_src : W3 m ρ c (Proc.devRef .tc main_v3) = Cert.ReferenceIdeal.Read.val_main_v3 (F := Ideal) (edges m c) := by
  show StableHlo.after hostOps1 (W2 m ρ c) (Proc.devRef .tc main_v3) = _
  after_results_simp
  exact W2_src m ρ c
theorem W3_dst : W3 m ρ c (Proc.devRef .tc main_v6) = Cert.ReferenceIdeal.Read.val_main_v6 (F := Ideal) (edges m c) := by
  show StableHlo.after hostOps1 (W2 m ρ c) (Proc.devRef .tc main_v6) = _
  after_results_simp
  exact W2_dst m ρ c
theorem W3_norm : W3 m ρ c (Proc.devRef .tc main_v26) = Cert.ReferenceIdeal.Read.val_main_v26 (F := Ideal) (edges m c) := by
  show StableHlo.after hostOps1 (W2 m ρ c) (Proc.devRef .tc main_v26) = _
  after_results_simp
  exact W2_norm m ρ c
theorem W3_arg4 : W3 m ρ c (Proc.devRef .tc main_arg4) = m ((c : Thread nD τ).loc main_arg4) := by
  show StableHlo.after hostOps1 (W2 m ρ c) (Proc.devRef .tc main_arg4) = _
  after_results_simp
  exact W2_arg4 m ρ c
theorem W3_arg5 : W3 m ρ c (Proc.devRef .tc main_arg5) = m ((c : Thread nD τ).loc main_arg5) := by
  show StableHlo.after hostOps1 (W2 m ρ c) (Proc.devRef .tc main_arg5) = _
  after_results_simp
  exact W2_arg5 m ρ c

end Cert.KernelIdeal.FoldB

end
-- ==== Proof.BiasRelu.lean ====
/-
  The second launch: the first layer's bias, then the rectifier.

  The launch walks 20 blocks of 5000 rows. At each block the body loads a [5000,32] block of the aggregated features and
  the [1,32] bias row, adds the bias row to every row of the block, takes the maximum with zero, and stores the result; the
  same-shape casts are the identity. Entry (r, o) of the stored block is max(feature (r, o) + bias (0, o), 0), and row r of
  block t is row 5000 t + r of the array, so after the last block the whole output array is that function of the two input
  arrays, index by index. The entry contents `V` of the launch are a parameter.
-/
import proofs.«177991_j81046032876152_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasRelu

open Idealize.ShloMosaic Idealize.ShloMosaic.TcCoe Idealize.SL.Sem
open Idealize.ShloMosaic.Pipeline (Dat)
open Cert.KernelIdeal Cert.KernelIdeal.Gen

theorem hz : (![0, 0] : Fin 2 → Nat) = fun _ => 0 := funext fun a => by fin_cases a <;> rfl

/-- The bias row's entry above array entry `i`: row 0, the column of `i`. -/
abbrev above (i : S100000x32.Idx) : S1x32.Idx := fun a => match a with
  | ⟨0, _⟩ => ⟨0, Nat.one_pos⟩
  | ⟨1, _⟩ => ⟨(i 1).val, (i 1).isLt⟩

/-- The bias row's entry above block entry `j`: row 0, the column of `j`. -/
abbrev aboveBlk (j : S5000x32.Idx) : S1x32.Idx := fun a => match a with
  | ⟨0, _⟩ => ⟨0, Nat.one_pos⟩
  | ⟨1, _⟩ => ⟨(j 1).val, (j 1).isLt⟩

/-- The whole-array function of the launch: the bias row added to every row, then the maximum with zero. -/
def rowBias (a : S100000x32.Idx → EReal) (b : S1x32.Idx → EReal) : S100000x32.Idx → EReal :=
  fun i => max (a i + b (above i)) (Ideal.ofBits .f32 0x00000000#32)

theorem rowBias_apply (a : S100000x32.Idx → EReal) (b : S1x32.Idx → EReal) (i : S100000x32.Idx) :
    rowBias a b i = max (a i + b (above i)) (Ideal.ofBits .f32 0x00000000#32) := rfl

/-! ## The body's stored value at an index -/

/-- Entry `j` of the body's stored value: the block's entry plus the bias entry above it, clamped below at zero. -/
theorem pay_apply (x0 : Vec Ideal S5000x32 .f32) (x1 : Vec Ideal S1x32 .f32) (j : S5000x32.Idx) :
    k1_pay1 x0 x1 j = max (x0 j + x1 (aboveBlk j)) (Ideal.ofBits .f32 0x00000000#32) := by
  unfold k1_pay1
  rw [shapeCast_self, shapeCast_self]
  show max (x0 j + broadcastTo S5000x32 x1 broadcasts_S1x32_S5000x32 j) (Ideal.ofBits .f32 0x00000000#32) = _
  rw [broadcastTo_apply x1 broadcasts_S1x32_S5000x32 j (aboveBlk j) (fun a => match a with
    | ⟨0, _⟩ => by show 0 = if (1 : Nat) = 1 then 0 else _; rw [if_pos rfl]
    | ⟨1, _⟩ => by show (j 1).val = if (32 : Nat) = 1 then 0 else (j 1).val; rw [if_neg (by decide)])]

/-! ## The windows' blocks, read at an index -/

variable (V : (c : Dev nD) → (b : Ref sig .tc) → Buf (Elt Ideal) ((c : Thread nD τ).loc b))

/-- The printed index maps over the grid: the feature window and the output window sit at block row `t`, column block 0;
    the bias window always at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the feature window's block at point `t` is row `5000 t + r` of the feature array. -/
theorem feat_apply (c : Dev nD) (t : Fin cfg1.N) (y : S5000x32.Idx) (i : S100000x32.Idx)
    (h0 : (i 0).val = 5000 * t.val + (y 0).val) (h1 : (i 1).val = (y 1).val) :
    (iblk1 V c 0 t : Vec Ideal S5000x32 .f32) y = (V c main_v40 : S100000x32.Idx → EReal) i := by
  obtain ⟨e0, e1, -, -, -, -⟩ := idx_facts t
  unfold iblk1
  rw [View.read_apply]
  show (V c main_v40 : S100000x32.Idx → EReal) _ = _
  refine congrArg (V c main_v40 : S100000x32.Idx → EReal) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 32 + 1 * (y 1).val = (i 1).val; rw [e1, h1]; omega

/-- The bias window's block at any point is the whole bias row. -/
theorem bias_apply (c : Dev nD) (t : Fin cfg1.N) (y : S1x32.Idx) (i : S1x32.Idx)
    (h0 : (i 0).val = (y 0).val) (h1 : (i 1).val = (y 1).val) :
    (iblk1 V c 1 t : Vec Ideal S1x32 .f32) y = (V c main_v41 : S1x32.Idx → EReal) i := by
  obtain ⟨-, -, e0, e1, -, -⟩ := idx_facts t
  unfold iblk1
  rw [View.read_apply]
  show (V c main_v41 : S1x32.Idx → EReal) _ = _
  refine congrArg (V c main_v41 : S1x32.Idx → EReal) (funext fun a => Fin.ext ?_)
  match a with
  | ⟨0, _⟩ => show win1_1.index t (0 : Fin 2) * 1 + 1 * (y 0).val = (i 0).val; rw [e0, h0]; omega
  | ⟨1, _⟩ => show win1_1.index t (1 : Fin 2) * 32 + 1 * (y 1).val = (i 1).val; rw [e1, h1]; omega

/-! ## From blocks to the array -/

/-- What point `t` writes back is block `t` of the whole-array function of the two input arrays as the launch finds
    them: block entry (r, o) is array entry (5000 t + r, o), and the bias entry above both is (0, o). -/
theorem flushed_eq (c : Dev nD) (t : Fin cfg1.N) :
    (dat1 V c).flushed 2 t = ((cfg1.win 2).blk t).view.read (Elt Ideal) (rowBias (V c main_v40) (V c main_v41)) := by
  obtain ⟨-, -, -, -, e0, e1⟩ := idx_facts t
  show (cfg1.win 2).cut (grid1.coords t) ((dat1 V c).after 2 t) = _
  rw [after1_2]
  unfold out1_2
  rw [View.canon_unit_zero hz]
  simp only [View.ld_unit_zero (S := S5000x32) hz, View.ld_unit_zero (S := S1x32) hz]
  funext j
  rw [View.read_apply, rowBias_apply]
  refine (pay_apply (iblk1 V c 0 t) (iblk1 V c 1 t) j).trans ?_
  rw [feat_apply V c t j (((cfg1.win 2).blk t).view.emb j)
      (by show win1_2.index t (0 : Fin 2) * 5000 + 1 * (j 0).val = 5000 * t.val + (j 0).val; rw [e0]; omega)
      (by show win1_2.index t (1 : Fin 2) * 32 + 1 * (j 1).val = (j 1).val; rw [e1]; omega),
    bias_apply V c t (aboveBlk j) (above (((cfg1.win 2).blk t).view.emb j))
      rfl (by show win1_2.index t (1 : Fin 2) * 32 + 1 * (j 1).val = (j 1).val; rw [e1]; omega)]
  rfl

/-- An index of the output array is in point `t`'s block iff each coordinate is in the block's range on its axis. -/
theorem mem_blk (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v42).slice (win1_2.rect t)).set ↔ _
  rw [View.set_slice_whole, Rect.mem_set_unit]
  exact Iff.rfl

/-- Every row of the output array is in some block: row `r` in block `r / 5000`. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, e0, e1⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e0]; omega
  | ⟨1, _⟩ => show win1_2.index t (1 : Fin 2) * 32 ≤ (i 1).val ∧ (i 1).val < win1_2.index t (1 : Fin 2) * 32 + 32; rw [e1]; omega

/-- After the launch the output array is the whole-array function of the two input arrays as the launch found them. -/
theorem final (c : Dev nD) : (dat1 V c).arrAt 2 cfg1.N = rowBias (V c main_v40) (V c main_v41) :=
  (dat1 V c).arrAt_eq_of_cover 2 _ (fun t _ => flushed_eq V c t) cover

end Cert.KernelIdeal.BiasRelu

end
-- ==== Proof.Linear2.lean ====
/-
  The third launch: the hidden features times the second weight matrix.

  The launch walks 20 blocks of 5000 rows. At each block the body loads a [5000,32] block of the hidden features and the
  whole [32,8] weight matrix, multiplies them into a zero accumulator, and stores the [5000,8] product; format changes and
  the same-shape cast are the identity. Entry (r, o) of a block's product is the sum over k of feature (r, k) times weight
  (k, o), and row r of block t is row 5000 t + r of the array, so after the last block the whole output array is the
  matrix product of the two input arrays as a sum over the 32 contraction steps, index by index. The entry contents `V`
  of the launch are a parameter.
-/
import proofs.«177991_j81046032876152_1_alg».proof.Proof.Gen.KernelIdeal.Frame
import proofs.«177991_j81046032876152_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Linear2

open Idealize.ShloMosaic Idealize.ShloMosaic.TcCoe Idealize.SL.Sem
open Idealize.ShloMosaic.Pipeline (Dat)
open Cert.KernelIdeal Cert.KernelIdeal.Gen

theorem hz : (![0, 0] : Fin 2 → Nat) = fun _ => 0 := funext fun a => by fin_cases a <;> rfl

/-- The matrix product of a [100000,32] array and a [32,8] array, entry by entry a sum over the 32 contraction steps. -/
def matProd (a : S100000x32.Idx → EReal) (w : S32x8.Idx → EReal) : S100000x8.Idx → EReal :=
  fun i => ∑ k : Fin 32, a (Cert.ReferenceIdeal.Read.lidx_main_v45 i k) * w (Cert.ReferenceIdeal.Read.ridx_main_v45 i k)

theorem matProd_apply (a : S100000x32.Idx → EReal) (w : S32x8.Idx → EReal) (i : S100000x8.Idx) :
    matProd a w i = ∑ k : Fin 32, a (Cert.ReferenceIdeal.Read.lidx_main_v45 i k) * w (Cert.ReferenceIdeal.Read.ridx_main_v45 i k) := rfl

/-! ## The body's product at an index -/

/-- The feature block's entry that output entry `j` meets at contraction step `k`: row of `j`, column `k`. -/
abbrev lrow (j : S5000x8.Idx) (k : Fin 32) : S5000x32.Idx := fun a => match a with
  | ⟨0, _⟩ => ⟨(j 0).val, (j 0).isLt⟩
  | ⟨1, _⟩ => ⟨k.val, k.isLt⟩
/-- The weight's entry that output entry `j` meets at contraction step `k`: row `k`, column of `j`. -/
abbrev rcol (j : S5000x8.Idx) (k : Fin 32) : S32x8.Idx := fun a => match a with
  | ⟨0, _⟩ => ⟨k.val, k.isLt⟩
  | ⟨1, _⟩ => ⟨(j 1).val, (j 1).isLt⟩

theorem lhs_0 (i : S5000x8.Idx) (q : dot_S5000x32_S32x8_S5000x8_1_0_0_1_n_n.contr.Idx) : (dot_S5000x32_S32x8_S5000x8_1_0_0_1_n_n.lhsIdx i q 0).val = (i 0).val := by
  unfold DotDims.lhsIdx
  rw [dif_neg (show ¬(0 : Fin S5000x32.rank) ∈ dot_S5000x32_S32x8_S5000x8_1_0_0_1_n_n.lhsBatch by decide), dif_pos (show (0 : Fin S5000x32.rank) ∈ dot_S5000x32_S32x8_S5000x8_1_0_0_1_n_n.lhsNonContracting by decide)]
  rfl
theorem lhs_1 (i : S5000x8.Idx) (q : dot_S5000x32_S32x8_S5000x8_1_0_0_1_n_n.contr.Idx) : (dot_S5000x32_S32x8_S5000x8_1_0_0_1_n_n.lhsIdx i q 1).val = (q ⟨0, by decide⟩).val :=
  dot_S5000x32_S32x8_S5000x8_1_0_0_1_n_n.lhsIdx_val_of_single rfl i q
theorem rhs_0 (i : S5000x8.Idx) (q : dot_S5000x32_S32x8_S5000x8_1_0_0_1_n_n.contr.Idx) : (dot_S5000x32_S32x8_S5000x8_1_0_0_1_n_n.rhsIdx i q 0).val = (q ⟨0, by decide⟩).val :=
  dot_S5000x32_S32x8_S5000x8_1_0_0_1_n_n.rhsIdx_val_of_single rfl i q
theorem rhs_1 (i : S5000x8.Idx) (q : dot_S5000x32_S32x8_S5000x8_1_0_0_1_n_n.contr.Idx) : (dot_S5000x32_S32x8_S5000x8_1_0_0_1_n_n.rhsIdx i q 1).val = (i 1).val := by
  unfold DotDims.rhsIdx
  rw [dif_neg (show ¬(1 : Fin S32x8.rank) ∈ dot_S5000x32_S32x8_S5000x8_1_0_0_1_n_n.rhsBatch by decide), dif_pos (show (1 : Fin S32x8.rank) ∈ dot_S5000x32_S32x8_S5000x8_1_0_0_1_n_n.rhsNonContracting by decide)]
  rfl

/-- Entry `j` of the body's stored value is the sum over the 32 contraction steps of feature-block entry (row of j, k)
    times weight entry (k, column of j). -/
theorem pay_apply (x0 : Vec Ideal S5000x32 .f32) (x1 : Vec Ideal S32x8 .f32) (j : S5000x8.Idx) :
    k2_pay1 x0 x1 j = ∑ k : Fin 32, x0 (lrow j k) * x1 (rcol j k) := by
  unfold k2_pay1
  rw [shapeCast_self]
  refine (Ideal.matmul_constant_zero_apply dot_S5000x32_S32x8_S5000x8_1_0_0_1_n_n none _ _ j).trans ?_
  rw [← Equiv.sum_comp (ValueIdx.contrEquiv1 dot_S5000x32_S32x8_S5000x8_1_0_0_1_n_n 32 rfl rfl).symm]
  refine Finset.sum_congr rfl fun k _ => ?_
  have hk := ValueIdx.contrEquiv1_symm_val dot_S5000x32_S32x8_S5000x8_1_0_0_1_n_n 32 rfl rfl k
  have el : dot_S5000x32_S32x8_S5000x8_1_0_0_1_n_n.lhsIdx j ((ValueIdx.contrEquiv1 dot_S5000x32_S32x8_S5000x8_1_0_0_1_n_n 32 rfl rfl).symm k) = lrow j k := funext fun a => Fin.ext (by
    match a with
    | ⟨0, _⟩ => exact lhs_0 _ _
    | ⟨1, _⟩ => exact (lhs_1 _ _).trans hk)
  have er : dot_S5000x32_S32x8_S5000x8_1_0_0_1_n_n.rhsIdx j ((ValueIdx.contrEquiv1 dot_S5000x32_S32x8_S5000x8_1_0_0_1_n_n 32 rfl rfl).symm k) = rcol j k := funext fun a => Fin.ext (by
    match a with
    | ⟨0, _⟩ => exact (rhs_0 _ _).trans hk
    | ⟨1, _⟩ => exact rhs_1 _ _)
  rw [el, er]
  rfl

/-! ## The windows' blocks, read at an index -/

variable (V : (c : Dev nD) → (b : Ref sig .tc) → Buf (Elt Ideal) ((c : Thread nD τ).loc b))

/-- The printed index maps over the grid: the feature window and the output window sit at block row `t`, column block 0;
    the weight window always at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `r` of the feature window's block at point `t` is row `5000 t + r` of the feature array. -/
theorem feat_apply (c : Dev nD) (t : Fin cfg2.N) (y : S5000x32.Idx) (i : S100000x32.Idx)
    (h0 : (i 0).val = 5000 * t.val + (y 0).val) (h1 : (i 1).val = (y 1).val) :
    (iblk2 V c 0 t : Vec Ideal S5000x32 .f32) y = (V c main_v42 : S100000x32.Idx → EReal) i := by
  obtain ⟨e0, e1, -, -, -, -⟩ := idx_facts t
  unfold iblk2
  rw [View.read_apply]
  show (V c main_v42 : S100000x32.Idx → EReal) _ = _
  refine congrArg (V c main_v42 : S100000x32.Idx → EReal) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 32 + 1 * (y 1).val = (i 1).val; rw [e1, h1]; omega

/-- The weight window's block at any point is the whole weight array. -/
theorem weight_apply (c : Dev nD) (t : Fin cfg2.N) (y : S32x8.Idx) (i : S32x8.Idx)
    (h0 : (i 0).val = (y 0).val) (h1 : (i 1).val = (y 1).val) :
    (iblk2 V c 1 t : Vec Ideal S32x8 .f32) y = (V c main_arg4 : S32x8.Idx → EReal) i := by
  obtain ⟨-, -, e0, e1, -, -⟩ := idx_facts t
  unfold iblk2
  rw [View.read_apply]
  show (V c main_arg4 : S32x8.Idx → EReal) _ = _
  refine congrArg (V c main_arg4 : S32x8.Idx → EReal) (funext fun a => Fin.ext ?_)
  match a with
  | ⟨0, _⟩ => show win2_1.index t (0 : Fin 2) * 32 + 1 * (y 0).val = (i 0).val; rw [e0, h0]; omega
  | ⟨1, _⟩ => show win2_1.index t (1 : Fin 2) * 8 + 1 * (y 1).val = (i 1).val; rw [e1, h1]; omega

/-! ## From blocks to the array -/

/-- What point `t` writes back is block `t` of the matrix product of the two input arrays as the launch finds them:
    the body's sum over k at block entry (r, o) is the product's sum at array entry (5000 t + r, o). -/
theorem flushed_eq (c : Dev nD) (t : Fin cfg2.N) :
    (dat2 V c).flushed 2 t = ((cfg2.win 2).blk t).view.read (Elt Ideal)
      (matProd (V c main_v42) (V c main_arg4)) := by
  obtain ⟨-, -, -, -, e0, e1⟩ := idx_facts t
  show (cfg2.win 2).cut (grid2.coords t) ((dat2 V c).after 2 t) = _
  rw [after2_2]
  unfold out2_2
  rw [View.canon_unit_zero hz]
  simp only [View.ld_unit_zero (S := S5000x32) hz, View.ld_unit_zero (S := S32x8) hz]
  funext j
  rw [View.read_apply, matProd_apply]
  refine (pay_apply (iblk2 V c 0 t) (iblk2 V c 1 t) j).trans ?_
  refine Finset.sum_congr rfl fun k _ => ?_
  rw [feat_apply V c t (lrow j k) (Cert.ReferenceIdeal.Read.lidx_main_v45 (((cfg2.win 2).blk t).view.emb j) k)
      (by show win2_2.index t (0 : Fin 2) * 5000 + 1 * (j 0).val = 5000 * t.val + (j 0).val; rw [e0]; omega) rfl,
    weight_apply V c t (rcol j k) (Cert.ReferenceIdeal.Read.ridx_main_v45 (((cfg2.win 2).blk t).view.emb j) k)
      rfl (by show win2_2.index t (1 : Fin 2) * 8 + 1 * (j 1).val = (j 1).val; rw [e1]; omega)]

/-- An index of the output array is in point `t`'s block iff each coordinate is in the block's range on its axis. -/
theorem mem_blk (t : Fin cfg2.N) (i : S100000x8.Idx) :
    i ∈ ((cfg2.win 2).blk t).view.set ↔ ∀ a : Fin 2, win2_2.index t a * S5000x8.size a ≤ (i a).val ∧ (i a).val < win2_2.index t a * S5000x8.size a + S5000x8.size a := by
  show i ∈ ((View.whole main_v43).slice (win2_2.rect t)).set ↔ _
  rw [View.set_slice_whole, Rect.mem_set_unit]
  exact Iff.rfl

/-- Every row of the output array is in some block: row `r` in block `r / 5000`. -/
theorem cover (i : S100000x8.Idx) : ∃ t : Fin cfg2.N, (cfg2.win 2).flush t = true ∧ i ∈ ((cfg2.win 2).blk t).view.set := by
  have hi0 : (i 0).val < 100000 := (i 0).isLt
  have hi1 : (i 1).val < 8 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, e0, e1⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e0]; omega
  | ⟨1, _⟩ => show win2_2.index t (1 : Fin 2) * 8 ≤ (i 1).val ∧ (i 1).val < win2_2.index t (1 : Fin 2) * 8 + 8; rw [e1]; omega

/-- After the launch the output array is the matrix product of the two input arrays as the launch found them. -/
theorem final (c : Dev nD) : (dat2 V c).arrAt 2 cfg2.N
    = matProd (V c main_v42) (V c main_arg4) :=
  (dat2 V c).arrAt_eq_of_cover 2 _ (fun t _ => flushed_eq V c t) cover

end Cert.KernelIdeal.Linear2

end
-- ==== Proof.FoldC.lean ====
/-
  The buffer contents after the second and the third launch.

  The second launch adds the first bias to every row of the aggregated first layer and clamps at zero; the bias row it
  reads is the bias vector laid out as [1,32], so the entry above column o is the vector's entry o, which is what the
  reference's broadcast of the vector reads there: the output array is the reference's hidden layer. The third launch
  multiplies the hidden layer by the second weight matrix, the same sum over the 32 hidden features as the
  reference's second product. The edge buffers and the last argument pass through both unchanged.
-/
import proofs.«177991_j81046032876152_1_alg».proof.Proof.Gen.KernelIdeal.Frame
import proofs.«177991_j81046032876152_1_alg».proof.Proof.Gen.ReferenceIdeal.Read
import proofs.«177991_j81046032876152_1_alg».proof.Proof.FoldA
import proofs.«177991_j81046032876152_1_alg».proof.Proof.FoldB
import proofs.«177991_j81046032876152_1_alg».proof.Proof.BiasRelu
import proofs.«177991_j81046032876152_1_alg».proof.Proof.Linear2
import Idealize.ShloMosaic.Lib.StableHlo.Run
import Idealize.ShloMosaic.Lib.Pipeline.Value
import Idealize.ShloMosaic.Lib.ValueIdx

set_option maxRecDepth 16384

noncomputable section

namespace Cert.KernelIdeal.FoldC

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

open Cert.KernelIdeal.FoldA Cert.KernelIdeal.FoldB

/-- The first bias vector and the second weight matrix as launched. -/
abbrev bias1 : (⟨Cert.ReferenceIdeal.S32, .f32⟩ : BufTy).Contents (Elt Ideal) := m ((c : Thread nD τ).loc main_arg3)
abbrev weight2 : (⟨Cert.ReferenceIdeal.S32x8, .f32⟩ : BufTy).Contents (Elt Ideal) := m ((c : Thread nD τ).loc main_arg4)

/-! ## After the second launch -/

/-- A bias vector laid out as a [1,32] row, read above array entry `i`, is the vector broadcast along the rows, read
    at `i`: both are the vector's entry at the column of `i`. -/
theorem biasRow_apply (b : S32.Idx → EReal) (i : S100000x32.Idx) :
    shapeCast S1x32 b shapeCasts_S32_S1x32 (Cert.KernelIdeal.BiasRelu.above i) = Cert.ReferenceIdeal.Read.val_main_v42 (F := Ideal) b i := by
  rw [Cert.ReferenceIdeal.Read.val_main_v42_apply, Cert.ReferenceIdeal.Read.val_main_v41_apply]
  refine shapeCast_apply b shapeCasts_S32_S1x32 (Cert.KernelIdeal.BiasRelu.above i) (Cert.ReferenceIdeal.Read.idx_main_v41 (Cert.ReferenceIdeal.Read.idx_main_v42 i)) ?_
  rewrite [Shape.rowMajor_val_one, Shape.rowMajor_val_two]
  show (i 1).val = 0 * 32 + (i 1).val
  omega

/-- The second launch's output array is the reference's hidden layer: aggregate plus bias, clamped below at zero. -/
theorem W4_hidden : W4 m ρ c (Proc.devRef .tc main_v42)
    = Cert.ReferenceIdeal.Read.val_main_v44 (F := Ideal) (feats m c) (edges m c) (weight1 m c) (bias1 m c) :=
  (W4_arr m ρ c 2).trans ((Cert.KernelIdeal.BiasRelu.final (V3 m ρ) c).trans (by
    rw [show V3 m ρ c main_v40 = _ from W3_agg m ρ c, show V3 m ρ c main_v41 = _ from W3_biasRow m ρ c]
    funext i
    rw [Cert.KernelIdeal.BiasRelu.rowBias_apply, biasRow_apply, Cert.ReferenceIdeal.Read.val_main_v44_apply, Cert.ReferenceIdeal.Read.val_main_v43_apply,
      Cert.ReferenceIdeal.Read.val_main_call0_v0_apply, Cert.ReferenceIdeal.Read.val_main_call0_cst_apply]
    rfl))

/-- The second launch writes only its output array. -/
theorem W4_src : W4 m ρ c (Proc.devRef .tc main_v3) = Cert.ReferenceIdeal.Read.val_main_v3 (F := Ideal) (edges m c) :=
  (W4_of_ne m ρ c main_v3 (by decide)).trans (W3_src m ρ c)
theorem W4_dst : W4 m ρ c (Proc.devRef .tc main_v6) = Cert.ReferenceIdeal.Read.val_main_v6 (F := Ideal) (edges m c) :=
  (W4_of_ne m ρ c main_v6 (by decide)).trans (W3_dst m ρ c)
theorem W4_norm : W4 m ρ c (Proc.devRef .tc main_v26) = Cert.ReferenceIdeal.Read.val_main_v26 (F := Ideal) (edges m c) :=
  (W4_of_ne m ρ c main_v26 (by decide)).trans (W3_norm m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-! ## After the third launch -/

/-- The third launch's output array is the hidden layer times the second weight matrix. -/
theorem W5_prod : W5 m ρ c (Proc.devRef .tc main_v43)
    = Cert.ReferenceIdeal.Read.val_main_v45 (F := Ideal) (feats m c) (edges m c) (weight1 m c) (bias1 m c) (weight2 m c) :=
  (W5_arr m ρ c 2).trans ((Cert.KernelIdeal.Linear2.final (V4 m ρ) c).trans (by
    rw [show V4 m ρ c main_v42 = _ from W4_hidden m ρ c, show V4 m ρ c main_arg4 = m ((c : Thread nD τ).loc main_arg4) from W4_arg4 m ρ c]
    funext i
    rw [Cert.KernelIdeal.Linear2.matProd_apply, Cert.ReferenceIdeal.Read.val_main_v45_apply]))

/-- The third launch writes only its output array. -/
theorem W5_src : W5 m ρ c (Proc.devRef .tc main_v3) = Cert.ReferenceIdeal.Read.val_main_v3 (F := Ideal) (edges m c) :=
  (W5_of_ne m ρ c main_v3 (by decide)).trans (W4_src m ρ c)
theorem W5_dst : W5 m ρ c (Proc.devRef .tc main_v6) = Cert.ReferenceIdeal.Read.val_main_v6 (F := Ideal) (edges m c) :=
  (W5_of_ne m ρ c main_v6 (by decide)).trans (W4_dst m ρ c)
theorem W5_norm : W5 m ρ c (Proc.devRef .tc main_v26) = Cert.ReferenceIdeal.Read.val_main_v26 (F := Ideal) (edges m c) :=
  (W5_of_ne m ρ c main_v26 (by decide)).trans (W4_norm m ρ c)
theorem W5_arg5 : W5 m ρ c (Proc.devRef .tc main_arg5) = m ((c : Thread nD τ).loc main_arg5) :=
  (W5_of_ne m ρ c main_arg5 (by decide)).trans (W4_arg5 m ρ c)

end Cert.KernelIdeal.FoldC

end
-- ==== Proof.BiasOut.lean ====
/-
  The fourth launch: the second layer's bias.

  The launch walks 20 blocks of 5000 rows. At each block the body loads a [5000,8] block of the aggregated features and
  the [1,8] bias row, adds the bias row to every row of the block and stores the result; the
  same-shape casts are the identity. Entry (r, o) of the stored block is feature (r, o) + bias (0, o), and row r of
  block t is row 5000 t + r of the array, so after the last block the whole output array is that function of the two input
  arrays, index by index. The entry contents `V` of the launch are a parameter.
-/
import proofs.«177991_j81046032876152_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasOut

open Idealize.ShloMosaic Idealize.ShloMosaic.TcCoe Idealize.SL.Sem
open Idealize.ShloMosaic.Pipeline (Dat)
open Cert.KernelIdeal Cert.KernelIdeal.Gen

theorem hz : (![0, 0] : Fin 2 → Nat) = fun _ => 0 := funext fun a => by fin_cases a <;> rfl

/-- The bias row's entry above array entry `i`: row 0, the column of `i`. -/
abbrev above (i : S100000x8.Idx) : S1x8.Idx := fun a => match a with
  | ⟨0, _⟩ => ⟨0, Nat.one_pos⟩
  | ⟨1, _⟩ => ⟨(i 1).val, (i 1).isLt⟩

/-- The bias row's entry above block entry `j`: row 0, the column of `j`. -/
abbrev aboveBlk (j : S5000x8.Idx) : S1x8.Idx := fun a => match a with
  | ⟨0, _⟩ => ⟨0, Nat.one_pos⟩
  | ⟨1, _⟩ => ⟨(j 1).val, (j 1).isLt⟩

/-- The whole-array function of the launch: the bias row added to every row. -/
def rowBias (a : S100000x8.Idx → EReal) (b : S1x8.Idx → EReal) : S100000x8.Idx → EReal :=
  fun i => a i + b (above i)

theorem rowBias_apply (a : S100000x8.Idx → EReal) (b : S1x8.Idx → EReal) (i : S100000x8.Idx) :
    rowBias a b i = a i + b (above i) := rfl

/-! ## The body's stored value at an index -/

/-- Entry `j` of the body's stored value: the block's entry plus the bias entry above it. -/
theorem pay_apply (x0 : Vec Ideal S5000x8 .f32) (x1 : Vec Ideal S1x8 .f32) (j : S5000x8.Idx) :
    k3_pay1 x0 x1 j = x0 j + x1 (aboveBlk j) := by
  unfold k3_pay1
  rw [shapeCast_self, shapeCast_self]
  show x0 j + broadcastTo S5000x8 x1 broadcasts_S1x8_S5000x8 j = _
  rw [broadcastTo_apply x1 broadcasts_S1x8_S5000x8 j (aboveBlk j) (fun a => match a with
    | ⟨0, _⟩ => by show 0 = if (1 : Nat) = 1 then 0 else _; rw [if_pos rfl]
    | ⟨1, _⟩ => by show (j 1).val = if (8 : Nat) = 1 then 0 else (j 1).val; rw [if_neg (by decide)])]

/-! ## The windows' blocks, read at an index -/

variable (V : (c : Dev nD) → (b : Ref sig .tc) → Buf (Elt Ideal) ((c : Thread nD τ).loc b))

/-- The printed index maps over the grid: the feature window and the output window sit at block row `t`, column block 0;
    the bias window always at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `r` of the feature window's block at point `t` is row `5000 t + r` of the feature array. -/
theorem feat_apply (c : Dev nD) (t : Fin cfg3.N) (y : S5000x8.Idx) (i : S100000x8.Idx)
    (h0 : (i 0).val = 5000 * t.val + (y 0).val) (h1 : (i 1).val = (y 1).val) :
    (iblk3 V c 0 t : Vec Ideal S5000x8 .f32) y = (V c main_v56 : S100000x8.Idx → EReal) i := by
  obtain ⟨e0, e1, -, -, -, -⟩ := idx_facts t
  unfold iblk3
  rw [View.read_apply]
  show (V c main_v56 : S100000x8.Idx → EReal) _ = _
  refine congrArg (V c main_v56 : S100000x8.Idx → EReal) (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 8 + 1 * (y 1).val = (i 1).val; rw [e1, h1]; omega

/-- The bias window's block at any point is the whole bias row. -/
theorem bias_apply (c : Dev nD) (t : Fin cfg3.N) (y : S1x8.Idx) (i : S1x8.Idx)
    (h0 : (i 0).val = (y 0).val) (h1 : (i 1).val = (y 1).val) :
    (iblk3 V c 1 t : Vec Ideal S1x8 .f32) y = (V c main_v57 : S1x8.Idx → EReal) i := by
  obtain ⟨-, -, e0, e1, -, -⟩ := idx_facts t
  unfold iblk3
  rw [View.read_apply]
  show (V c main_v57 : S1x8.Idx → EReal) _ = _
  refine congrArg (V c main_v57 : S1x8.Idx → EReal) (funext fun a => Fin.ext ?_)
  match a with
  | ⟨0, _⟩ => show win3_1.index t (0 : Fin 2) * 1 + 1 * (y 0).val = (i 0).val; rw [e0, h0]; omega
  | ⟨1, _⟩ => show win3_1.index t (1 : Fin 2) * 8 + 1 * (y 1).val = (i 1).val; rw [e1, h1]; omega

/-! ## From blocks to the array -/

/-- What point `t` writes back is block `t` of the whole-array function of the two input arrays as the launch finds
    them: block entry (r, o) is array entry (5000 t + r, o), and the bias entry above both is (0, o). -/
theorem flushed_eq (c : Dev nD) (t : Fin cfg3.N) :
    (dat3 V c).flushed 2 t = ((cfg3.win 2).blk t).view.read (Elt Ideal) (rowBias (V c main_v56) (V c main_v57)) := by
  obtain ⟨-, -, -, -, e0, e1⟩ := idx_facts t
  show (cfg3.win 2).cut (grid3.coords t) ((dat3 V c).after 2 t) = _
  rw [after3_2]
  unfold out3_2
  rw [View.canon_unit_zero hz]
  simp only [View.ld_unit_zero (S := S5000x8) hz, View.ld_unit_zero (S := S1x8) hz]
  funext j
  rw [View.read_apply, rowBias_apply]
  refine (pay_apply (iblk3 V c 0 t) (iblk3 V c 1 t) j).trans ?_
  rw [feat_apply V c t j (((cfg3.win 2).blk t).view.emb j)
      (by show win3_2.index t (0 : Fin 2) * 5000 + 1 * (j 0).val = 5000 * t.val + (j 0).val; rw [e0]; omega)
      (by show win3_2.index t (1 : Fin 2) * 8 + 1 * (j 1).val = (j 1).val; rw [e1]; omega),
    bias_apply V c t (aboveBlk j) (above (((cfg3.win 2).blk t).view.emb j))
      rfl (by show win3_2.index t (1 : Fin 2) * 8 + 1 * (j 1).val = (j 1).val; rw [e1]; omega)]
  rfl

/-- An index of the output array is in point `t`'s block iff each coordinate is in the block's range on its axis. -/
theorem mem_blk (t : Fin cfg3.N) (i : S100000x8.Idx) :
    i ∈ ((cfg3.win 2).blk t).view.set ↔ ∀ a : Fin 2, win3_2.index t a * S5000x8.size a ≤ (i a).val ∧ (i a).val < win3_2.index t a * S5000x8.size a + S5000x8.size a := by
  show i ∈ ((View.whole main_v58).slice (win3_2.rect t)).set ↔ _
  rw [View.set_slice_whole, Rect.mem_set_unit]
  exact Iff.rfl

/-- Every row of the output array is in some block: row `r` in block `r / 5000`. -/
theorem cover (i : S100000x8.Idx) : ∃ t : Fin cfg3.N, (cfg3.win 2).flush t = true ∧ i ∈ ((cfg3.win 2).blk t).view.set := by
  have hi0 : (i 0).val < 100000 := (i 0).isLt
  have hi1 : (i 1).val < 8 := (i 1).isLt
  have hN : cfg3.N = 20 := N_3
  obtain ⟨t, ht⟩ : ∃ t : Fin cfg3.N, t.val = (i 0).val / 5000 := ⟨⟨(i 0).val / 5000, by omega⟩, rfl⟩
  obtain ⟨-, -, -, -, e0, e1⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e0]; omega
  | ⟨1, _⟩ => show win3_2.index t (1 : Fin 2) * 8 ≤ (i 1).val ∧ (i 1).val < win3_2.index t (1 : Fin 2) * 8 + 8; rw [e1]; omega

/-- After the launch the output array is the whole-array function of the two input arrays as the launch found them. -/
theorem final (c : Dev nD) : (dat3 V c).arrAt 2 cfg3.N = rowBias (V c main_v56) (V c main_v57) :=
  (dat3 V c).arrAt_eq_of_cover 2 _ (fun t _ => flushed_eq V c t) cover

end Cert.KernelIdeal.BiasOut

end
-- ==== Proof.FoldD.lean ====
/-
  The buffer contents after the last stretch of host operations and after the last launch: the program's result.

  The last stretch aggregates the second product exactly as the second stretch aggregated the first — rows gathered
  at the edge sources, scaled by the edge normalisation, added up at the edge destinations — and lays the second bias
  vector out as a [1,8] row. The last launch adds that row to every row of the aggregate. Entry by entry this is the
  reference's result: its aggregate of the same product plus its broadcast of the same bias vector.
-/
import proofs.«177991_j81046032876152_1_alg».proof.Proof.Gen.KernelIdeal.Frame
import proofs.«177991_j81046032876152_1_alg».proof.Proof.Gen.ReferenceIdeal.Read
import proofs.«177991_j81046032876152_1_alg».proof.Proof.FoldA
import proofs.«177991_j81046032876152_1_alg».proof.Proof.FoldB
import proofs.«177991_j81046032876152_1_alg».proof.Proof.FoldC
import proofs.«177991_j81046032876152_1_alg».proof.Proof.BiasOut
import Idealize.ShloMosaic.Lib.StableHlo.Run
import Idealize.ShloMosaic.Lib.Pipeline.Value
import Idealize.ShloMosaic.Lib.ValueIdx

set_option maxRecDepth 16384

noncomputable section

namespace Cert.KernelIdeal.FoldD

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

open Cert.KernelIdeal.FoldA Cert.KernelIdeal.FoldB Cert.KernelIdeal.FoldC

/-- The second bias vector as launched. -/
abbrev bias2 : (⟨Cert.ReferenceIdeal.S8, .f32⟩ : BufTy).Contents (Elt Ideal) := m ((c : Thread nD τ).loc main_arg5)

/-- The aggregated second layer. -/
theorem W6_agg : W6 m ρ c (Proc.devRef .tc main_v56)
    = Cert.ReferenceIdeal.Read.val_main_v58 (F := Ideal) (feats m c) (edges m c) (weight1 m c) (bias1 m c) (weight2 m c) := by
  show StableHlo.after hostOps3 (W5 m ρ c) (Proc.devRef .tc main_v56) = _
  after_results_simp
  rw [W5_prod m ρ c, W5_src m ρ c, W5_dst m ρ c, W5_norm m ρ c]
  rfl

/-- The second bias vector laid out as a [1,8] row. -/
theorem W6_biasRow : W6 m ρ c (Proc.devRef .tc main_v57)
    = shapeCast S1x8 (m ((c : Thread nD τ).loc main_arg5)) shapeCasts_S8_S1x8 := by
  show StableHlo.after hostOps3 (W5 m ρ c) (Proc.devRef .tc main_v57) = _
  after_results_simp
  rw [W5_arg5 m ρ c]
  rfl

/-- A bias vector laid out as a [1,8] row, read above array entry `i`, is the vector broadcast along the rows, read at
    `i`: both are the vector's entry at the column of `i`. -/
theorem biasRow_apply (b : S8.Idx → EReal) (i : S100000x8.Idx) :
    shapeCast S1x8 b shapeCasts_S8_S1x8 (Cert.KernelIdeal.BiasOut.above i) = Cert.ReferenceIdeal.Read.val_main_v60 (F := Ideal) b i := by
  rw [Cert.ReferenceIdeal.Read.val_main_v60_apply, Cert.ReferenceIdeal.Read.val_main_v59_apply]
  refine shapeCast_apply b shapeCasts_S8_S1x8 (Cert.KernelIdeal.BiasOut.above i) (Cert.ReferenceIdeal.Read.idx_main_v59 (Cert.ReferenceIdeal.Read.idx_main_v60 i)) ?_
  rewrite [Shape.rowMajor_val_one, Shape.rowMajor_val_two]
  show (i 1).val = 0 * 8 + (i 1).val
  omega

/-- THE RESULT: after the last launch the result buffer holds the reference's result stage of the six arguments. -/
theorem W7_out : W7 m ρ c (Proc.devRef .tc main_v58)
    = Cert.ReferenceIdeal.Read.val_main_v61 (F := Ideal) (feats m c) (edges m c) (weight1 m c) (bias1 m c) (weight2 m c) (bias2 m c) :=
  (W7_arr m ρ c 2).trans ((Cert.KernelIdeal.BiasOut.final (V6 m ρ) c).trans (by
    rw [show V6 m ρ c main_v56 = _ from W6_agg m ρ c, show V6 m ρ c main_v57 = _ from W6_biasRow m ρ c]
    funext i
    rw [Cert.KernelIdeal.BiasOut.rowBias_apply, biasRow_apply, Cert.ReferenceIdeal.Read.val_main_v61_apply]
    rfl))

end Cert.KernelIdeal.FoldD

end
-- ==== Proof.lean ====
/-
  A two-layer graph convolution, computed with four tiled kernel launches, equals its plain array-program reference
  on the extended reals.

  Both programs first build, from the edge list alone, every edge's source and destination node (one self-loop per
  node appended) and the edge normalisation 1/sqrt(deg(src)) · 1/sqrt(deg(dst)); a layer is then
      out = scatter-add over destinations of ( (H · W)[src] · norm ) + bias,
  with a maximum with zero between the two layers. The two programs differ only in how the dense steps run: where the
  reference has one matrix product, the kernel program walks 20 row blocks and multiplies block by block into a zero
  accumulator (format changes are the identity on the extended reals); where the reference broadcasts the bias vector
  and adds, the kernel program lays the vector out as one row and adds that row to every row of a block. Entry by
  entry these are the same sums over the contraction index and the same sums with the bias entry of the column, so no
  algebraic law beyond reading both sides at an index is used, and the finiteness of the inputs is never opened.

  The proof follows the kernel program's buffer contents from launch to return as a fold (the modules `FoldA` … `FoldD`):
  each host stretch applies the operations the reference applies, each launch leaves its output array at the whole-array
  function of its inputs (`Linear1`, `BiasRelu`, `Linear2`, `BiasOut`), and at every stage the buffer holds the
  reference's own stage function of the six arguments. The shared gather / scale / scatter-add chains are carried as
  the reference's stage functions and never opened.

  The three frame claims are the generated ones (for the reference, its generated run with the result dropped); the
  idealization rewrote no operation, so there is nothing to preserve.
-/
import proofs.«177991_j81046032876152_1_alg».proof.Defs
import proofs.«177991_j81046032876152_1_alg».proof.Proof.Gen.Kernel
import proofs.«177991_j81046032876152_1_alg».proof.Proof.Gen.Kernel.Skeleton
import proofs.«177991_j81046032876152_1_alg».proof.Proof.Gen.Kernel.Launch
import proofs.«177991_j81046032876152_1_alg».proof.Proof.Gen.Kernel.Points
import proofs.«177991_j81046032876152_1_alg».proof.Proof.Gen.Kernel.Frame
import proofs.«177991_j81046032876152_1_alg».proof.Proof.Gen.KernelIdeal
import proofs.«177991_j81046032876152_1_alg».proof.Proof.Gen.KernelIdeal.Skeleton
import proofs.«177991_j81046032876152_1_alg».proof.Proof.Gen.KernelIdeal.Launch
import proofs.«177991_j81046032876152_1_alg».proof.Proof.Gen.KernelIdeal.Points
import proofs.«177991_j81046032876152_1_alg».proof.Proof.Gen.KernelIdeal.Frame
import proofs.«177991_j81046032876152_1_alg».proof.Proof.Gen.ReferenceIdeal
import proofs.«177991_j81046032876152_1_alg».proof.Proof.Gen.Pre_finite_inputs
import proofs.«177991_j81046032876152_1_alg».proof.Proof.Gen.ReferenceIdeal.Run
import proofs.«177991_j81046032876152_1_alg».proof.Proof.Gen.ReferenceIdeal.Read
import proofs.«177991_j81046032876152_1_alg».proof.Proof.KernelRun
import proofs.«177991_j81046032876152_1_alg».proof.Proof.FoldD
import Idealize.ShloMosaic.Adequacy
import Idealize.ShloMosaic.Init

noncomputable section

namespace Cert.Proof

open Idealize.ShloMosaic Idealize.SL.Sem

/-- The kernel program as printed runs to the end, nothing faulting, its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the same result array: the kernel program's
    result buffer ends at the last stage of its fold of buffer contents, which is the reference's result stage of the
    arguments; the reference's run ends at that stage too. -/
theorem algebraic : Cert.algebraic_KernelIdeal_ReferenceIdeal := by
  intro m ρ m' ρ' _ hagree
  refine ⟨fun c => Cert.KernelIdeal.Gen.W7 m ρ c (Proc.devRef .tc Cert.KernelIdeal.main_v58),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v61_eq, h0, h1, h2, h3, h4, h5]
  exact (Cert.KernelIdeal.FoldD.W7_out m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
